-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn_part1 {F : FTy → Type} [FloatOps F] (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  main_v18

def fn {F : FTy → Type} [FloatOps F] (main_arg0 : FVec F S16777216 .f32) (main_arg1 : FVec F S16777216 .f32) (main_arg2 : IVec S16777216 32) (main_arg3 : FVec F S16777216 .f32) (main_arg4 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg3
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S16777216 .f32 := Host.absf main_arg4
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_v13 main_v16
-- ==== Kernel.lean ====
abbrev S16777216 : Shape := ⟨1, ![16777216]⟩
abbrev S131072x128 : Shape := ⟨2, ![131072, 128]⟩
abbrev S2x1x128 : Shape := ⟨3, ![2, 1, 128]⟩
abbrev S4096x128 : Shape := ⟨2, ![4096, 128]⟩
abbrev S1x1x128 : Shape := ⟨3, ![1, 1, 128]⟩
abbrev S1x128 : Shape := ⟨2, ![1, 128]⟩
abbrev S128 : Shape := ⟨1, ![128]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .i32⟩
  | .hbm, ⟨3, _⟩ => ⟨S16777216, .f32⟩
  | .hbm, ⟨4, _⟩ => ⟨S16777216, .f32⟩
  | .hbm, ⟨5, _⟩ => ⟨S131072x128, .f32⟩
  | .hbm, ⟨6, _⟩ => ⟨S131072x128, .i32⟩
  | .hbm, ⟨7, _⟩ => ⟨S131072x128, .f32⟩
  | .hbm, ⟨8, _⟩ => ⟨S131072x128, .f32⟩
  | .hbm, ⟨9, _⟩ => ⟨S2x1x128, .f32⟩
  | .hbm, ⟨10, _⟩ => ⟨S_, .f32⟩
  | .hbm, ⟨11, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x1x128, .f32⟩
  | .local _ .vmem, ⟨9, _⟩ => ⟨S1x1x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16777216_S131072x128 : S16777216.ShapeCasts S131072x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S128 : S4096x128.Reduces [0] S128
  shapeCasts_S128_S1x128 : S128.ShapeCasts S1x128
  reducesTo_S2x1x128_S_d0_1_2 : S2x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .i32 = 32 ∨ (Rect.block (s := S131072x128) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .i32⟩
  | .hbm, ⟨3, _⟩ => ⟨S16777216, .f32⟩
  | .hbm, ⟨4, _⟩ => ⟨S16777216, .f32⟩
  | .hbm, ⟨5, _⟩ => ⟨S16777216, .f32⟩
  | .hbm, ⟨6, _⟩ => ⟨S_, .i32⟩
  | .hbm, ⟨7, _⟩ => ⟨S16777216, .i32⟩
  | .hbm, ⟨8, _⟩ => ⟨S16777216, .i1⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S16777216, .f32⟩
  | .hbm, ⟨15, _⟩ => ⟨S16777216, .i1⟩
  | .hbm, ⟨16, _⟩ => ⟨S_, .f32⟩
  | .hbm, ⟨17, _⟩ => ⟨S16777216, .f32⟩
  | .hbm, ⟨18, _⟩ => ⟨S16777216, .i1⟩
  | .hbm, ⟨19, _⟩ => ⟨S16777216, .i1⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S_, .f32⟩
  | .hbm, ⟨33, _⟩ => ⟨S16777216, .f32⟩
  | .hbm, ⟨34, _⟩ => ⟨S16777216, .f32⟩
  | .hbm, ⟨35, _⟩ => ⟨S16777216, .f32⟩
  | .hbm, ⟨36, _⟩ => ⟨S_, .f32⟩
  | .hbm, ⟨37, _⟩ => ⟨S_, .f32⟩
  | .hbm, ⟨38, _⟩ => ⟨S16777216, .f32⟩
  | .hbm, ⟨39, _⟩ => ⟨S16777216, .f32⟩
  | .hbm, ⟨40, _⟩ => ⟨S16777216, .i1⟩
  | .hbm, ⟨41, _⟩ => ⟨S_, .f32⟩
  | .hbm, ⟨42, _⟩ => ⟨S16777216, .f32⟩
  | .hbm, ⟨43, _⟩ => ⟨S16777216, .f32⟩
  | .hbm, ⟨44, _⟩ => ⟨S_, .f32⟩
  | .hbm, ⟨45, _⟩ => ⟨S16777216, .f32⟩
  | .hbm, ⟨46, _⟩ => ⟨S16777216, .f32⟩
  | .hbm, ⟨47, _⟩ => ⟨S_, .f32⟩
  | .hbm, ⟨48, _⟩ => ⟨S_, .f32⟩
  | .hbm, ⟨49, _⟩ => ⟨S16777216, .f32⟩
  | .hbm, ⟨50, _⟩ => ⟨S16777216, .f32⟩
  | .hbm, ⟨51, _⟩ => ⟨S_, .f32⟩
  | .hbm, ⟨52, _⟩ => ⟨S_, .f32⟩
  | .hbm, ⟨53, _⟩ => ⟨S16777216, .f32⟩
  | .hbm, ⟨54, _⟩ => ⟨S16777216, .f32⟩
  | .hbm, ⟨55, _⟩ => ⟨S_, .f32⟩
  | .hbm, ⟨56, _⟩ => ⟨S_, .f32⟩
  | .hbm, ⟨57, _⟩ => ⟨S16777216, .f32⟩
  | .hbm, ⟨58, _⟩ => ⟨S16777216, .f32⟩
  | .hbm, ⟨59, _⟩ => ⟨S16777216, .f32⟩
  | .hbm, ⟨60, _⟩ => ⟨S_, .f32⟩
  | .hbm, ⟨61, _⟩ => ⟨S_, .f32⟩
  | .hbm, ⟨62, _⟩ => ⟨S16777216, .f32⟩
  | .hbm, ⟨63, _⟩ => ⟨S16777216, .f32⟩
  | .hbm, ⟨64, _⟩ => ⟨S16777216, .f32⟩
  | .hbm, ⟨65, _⟩ => ⟨S16777216, .f32⟩
  | .hbm, ⟨66, _⟩ => ⟨S_, .f32⟩
  | .hbm, ⟨67, _⟩ => ⟨S16777216, .f32⟩
  | .hbm, ⟨68, _⟩ => ⟨S16777216, .f32⟩
  | .hbm, ⟨69, _⟩ => ⟨S16777216, .f32⟩
  | .hbm, ⟨70, _⟩ => ⟨S16777216, .f32⟩
  | .hbm, ⟨71, _⟩ => ⟨S16777216, .f32⟩
  | .hbm, ⟨72, _⟩ => ⟨S16777216, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S16777216, .f32⟩
  | .hbm, ⟨77, _⟩ => ⟨S_, .f32⟩
  | .hbm, ⟨78, _⟩ => ⟨S16777216, .f32⟩
  | .hbm, ⟨79, _⟩ => ⟨S16777216, .f32⟩
  | .hbm, ⟨80, _⟩ => ⟨S16777216, .f32⟩
  | .hbm, ⟨81, _⟩ => ⟨S16777216, .f32⟩
  | .hbm, ⟨82, _⟩ => ⟨S16777216, .f32⟩
  | .hbm, ⟨83, _⟩ => ⟨S16777216, .f32⟩
  | .hbm, ⟨84, _⟩ => ⟨S16777216, .f32⟩
  | .hbm, ⟨85, _⟩ => ⟨S16777216, .f32⟩
  | .hbm, ⟨86, _⟩ => ⟨S_, .f32⟩
  | .hbm, ⟨87, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_cst_11 : Ref sig .tc := ⟨.hbm, 51, rfl⟩
abbrev main_call3_v0 : Ref sig .tc := ⟨.hbm, 52, rfl⟩
abbrev main_call3_v1 : Ref sig .tc := ⟨.hbm, 53, rfl⟩
abbrev main_v29 : Ref sig .tc := ⟨.hbm, 54, rfl⟩
abbrev main_cst_12 : Ref sig .tc := ⟨.hbm, 55, rfl⟩
abbrev main_cst_13 : Ref sig .tc := ⟨.hbm, 56, rfl⟩
abbrev main_call4_v0 : Ref sig .tc := ⟨.hbm, 57, rfl⟩
abbrev main_call4_v1 : Ref sig .tc := ⟨.hbm, 58, rfl⟩
abbrev main_v30 : Ref sig .tc := ⟨.hbm, 59, rfl⟩
abbrev main_cst_14 : Ref sig .tc := ⟨.hbm, 60, rfl⟩
abbrev main_cst_15 : Ref sig .tc := ⟨.hbm, 61, rfl⟩
abbrev main_call5_v0 : Ref sig .tc := ⟨.hbm, 62, rfl⟩
abbrev main_call5_v1 : Ref sig .tc := ⟨.hbm, 63, rfl⟩
abbrev main_v31 : Ref sig .tc := ⟨.hbm, 64, rfl⟩
abbrev main_v32 : Ref sig .tc := ⟨.hbm, 65, rfl⟩
abbrev main_cst_16 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_17 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_18 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_19 : Ref sig .tc := ⟨.hbm, 86, rfl⟩
abbrev main_v50 : Ref sig .tc := ⟨.hbm, 87, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Spec.lean ====
/-
  The loss of one reading, as a function of the prediction `p`, the sepsis flag `g` (a signed 32-bit word), the onset
  time `s` and the reading's time `t`, on the extended reals.

  With `d = t - (s - (-6))` (hours past the optimal detection time), `f` the flag as a number and the window
  conditions `d ≤ 3`, `d ≤ -6`, `g > 0`:
    u_TP = if d ≤ 3 ∧ g > 0 then (if d ≤ -6 then max (d/6 + 2) (-0.05) else -d/9 + 1/3) else 0
    u_FN = if d ≤ 3 ∧ g > 0 then (if d ≤ -6 then 0 else -2d/9 - 4/3) else 0
    u_FP = if d ≤ 3 then -0.05 else 0
    score = p · (u_TP · f + u_FP · (1 - f)) + (1 - p) · (u_FN · f)
  and the loss is `0 - score`. The rational constants are the f32 words both programs carry; the same word on both
  sides is never evaluated.
-/
import Idealize.ShloMosaic.PureOps.Ideal.Laws
import Idealize.ShloMosaic.Lib.ValueIdx

noncomputable section

namespace Cert.Utility

open Idealize.ShloMosaic

/-- An f32 word as the extended real it denotes. -/
abbrev lit (b : BitVec 32) : EReal := Ideal.ofBits .f32 b

/-- Hours past the optimal detection time: `t - (s - (-6))`. -/
def delay (s t : EReal) : EReal := t - (s - lit 0xC0C00000#32)

/-- `d ≤ 3`: the reading is inside the scoring window. -/
def inWindow (s t : EReal) : BitVec 1 := Ideal.cmp .ole (delay s t) (lit 0x40400000#32)

/-- `d ≤ -6`: the reading is before the optimal time. -/
def early (s t : EReal) : BitVec 1 := Ideal.cmp .ole (delay s t) (lit 0xC0C00000#32)

/-- The patient is septic: the flag is positive as a signed word. -/
def septic (g : BitVec 32) : BitVec 1 := IntOp.cmpi .sgt g 0#32

/-- The flag as a number. -/
def flag (g : BitVec 32) : EReal := ((g.toInt : ℝ) : EReal)

/-- Utility of a true positive. -/
def uTP (g : BitVec 32) (s t : EReal) : EReal :=
  Scalar.select (IntOp.andi (inWindow s t) (septic g))
    (Scalar.select (early s t)
      (max (lit 0x3E2AAAAB#32 * delay s t + lit 0x40000000#32) (lit 0xBD4CCCCD#32))
      (lit 0xBDE38E39#32 * delay s t + lit 0x3EAAAAAB#32))
    (lit 0x00000000#32)

/-- Utility of a false negative. -/
def uFN (g : BitVec 32) (s t : EReal) : EReal :=
  Scalar.select (IntOp.andi (inWindow s t) (septic g))
    (Scalar.select (early s t) (lit 0x00000000#32) (lit 0xBE638E39#32 * delay s t + lit 0xBFAAAAAB#32))
    (lit 0x00000000#32)

/-- Utility of a false positive. -/
def uFP (s t : EReal) : EReal := Scalar.select (inWindow s t) (lit 0xBD4CCCCD#32) (lit 0x00000000#32)

/-- The expected utility of the prediction `p`. -/
def score (p : EReal) (g : BitVec 32) (s t : EReal) : EReal :=
  p * (uTP g s t * flag g + uFP s t * (lit 0x3F800000#32 - flag g))
    + (lit 0x3F800000#32 - p) * (uFN g s t * flag g)

/-- The loss of one reading: the negated utility, written as the kernel does, `0 - score`. -/
def loss (p : EReal) (g : BitVec 32) (s t : EReal) : EReal := lit 0x00000000#32 - score p g s t

/-- The reference's spelling of the same loss — it keeps the true-negative term `(if d ≤ 3 then 0 else 0) · (1 - f)`
    and negates at the end — is the kernel's: `0 · x = 0` on every extended real, and `0 - x = -x`. -/
theorem loss_eq_neg (p : EReal) (g : BitVec 32) (s t : EReal) :
    -(p * (uTP g s t * flag g + uFP s t * (lit 0x3F800000#32 - flag g))
        + (lit 0x3F800000#32 - p) * (uFN g s t * flag g
            + Scalar.select (inWindow s t) (lit 0x00000000#32) (lit 0x00000000#32) * (lit 0x3F800000#32 - flag g)))
      = loss p g s t := by
  have h0 : Scalar.select (inWindow s t) (lit 0x00000000#32) (lit 0x00000000#32) = 0 := by
    unfold Scalar.select; split <;> exact Ideal.ofBits_zero_f32
  rw [h0, zero_mul, add_zero]
  unfold loss score
  rw [show lit 0x00000000#32 = 0 from Ideal.ofBits_zero_f32, zero_sub]

end Cert.Utility

end
-- ==== Proof.RefValue.lean ====
/-
  The reference's result as a sum of the per-reading loss.

  Every operation of the reference before its final reduction acts on one reading at a time; read at a flat index `i`
  the negated utility it computes is `Cert.Utility.loss` of the four inputs at `i`, and the result is the zero
  word plus the sum of these over all readings.
-/
import proofs.«105581_j70531952935356_2_alg».proof.Proof.Gen.ReferenceIdeal.Read
import proofs.«105581_j70531952935356_2_alg».proof.Proof.Spec

noncomputable section

namespace Cert.Utility.Ref

open Cert.ReferenceIdeal Cert.ReferenceIdeal.Gen Cert.ReferenceIdeal.Read Idealize.ShloMosaic

/-- The reference's negated utility at reading `i` is the loss of that reading's inputs. -/
theorem negated_apply (p : (⟨S16777216, .f32⟩ : BufTy).Contents (Elt Ideal)) (g : (⟨S16777216, .i32⟩ : BufTy).Contents (Elt Ideal))
    (s t : (⟨S16777216, .f32⟩ : BufTy).Contents (Elt Ideal)) (i : S16777216.Idx) :
    val_main_v49 (F := Ideal) p g s t i = Cert.Utility.loss (p i) (g i) (s i) (t i) := by
  simp only [val_main_v0_apply, val_main_c_apply, val_main_v1_apply, val_main_v2_apply, val_main_cst_apply, val_main_v3_apply, val_main_v4_apply, val_main_v5_apply, val_main_cst_0_apply, val_main_v6_apply, val_main_v7_apply, val_main_cst_1_apply, val_main_v8_apply, val_main_v9_apply, val_main_v10_apply, val_main_cst_2_apply, val_main_v11_apply, val_main_v12_apply, val_main_cst_3_apply, val_main_v13_apply, val_main_v14_apply, val_main_cst_4_apply, val_main_v15_apply, val_main_v16_apply, val_main_cst_5_apply, val_main_v17_apply, val_main_v18_apply, val_main_cst_6_apply, val_main_v19_apply, val_main_v20_apply, val_main_v21_apply, val_main_cst_7_apply, val_main_call1_v0_apply, val_main_call1_v1_apply, val_main_v22_apply, val_main_v23_apply, val_main_cst_8_apply, val_main_v24_apply, val_main_v25_apply, val_main_cst_9_apply, val_main_v26_apply, val_main_v27_apply, val_main_cst_10_apply, val_main_call2_v0_apply, val_main_call2_v1_apply, val_main_v28_apply, val_main_cst_11_apply, val_main_call3_v0_apply, val_main_call3_v1_apply, val_main_v29_apply, val_main_cst_12_apply, val_main_cst_13_apply, val_main_call4_v0_apply, val_main_call4_v1_apply, val_main_v30_apply, val_main_cst_14_apply, val_main_cst_15_apply, val_main_call5_v0_apply, val_main_call5_v1_apply, val_main_v31_apply, val_main_v32_apply, val_main_cst_16_apply, val_main_v33_apply, val_main_v34_apply, val_main_v35_apply, val_main_v36_apply, val_main_v37_apply, val_main_v38_apply, val_main_cst_17_apply, val_main_v39_apply, val_main_v40_apply, val_main_v41_apply, val_main_cst_18_apply, val_main_v42_apply, val_main_v43_apply, val_main_v44_apply, val_main_v45_apply, val_main_v46_apply, val_main_v47_apply, val_main_v48_apply, val_main_v49_apply, val_main_cst_19_apply]
  exact Cert.Utility.loss_eq_neg (p i) (g i) (s i) (t i)

/-- The reference's result: the zero word plus the sum of the losses of all readings. -/
theorem result_apply (p : (⟨S16777216, .f32⟩ : BufTy).Contents (Elt Ideal)) (g : (⟨S16777216, .i32⟩ : BufTy).Contents (Elt Ideal))
    (s t : (⟨S16777216, .f32⟩ : BufTy).Contents (Elt Ideal)) (j : S_.Idx) :
    val_main_v50 (F := Ideal) p g s t j
      = Cert.Utility.lit 0x00000000#32 + ∑ i : S16777216.Idx, Cert.Utility.loss (p i) (g i) (s i) (t i) := by
  rw [val_main_v50_apply]
  simp only [negated_apply]
  rfl

end Cert.Utility.Ref

end
-- ==== Proof.KernelPieces.lean ====
/-
  What one run of the kernel body leaves in the accumulator row's staging buffer, read back as a value: at the first
  point of a half the row is reset to zero and the block's column sums are added; at every other point they are added
  to the row the previous point left. In both cases the result is one function `step` of the four input blocks and
  the row added to.
-/
import proofs.«105581_j70531952935356_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One grid step on the accumulator row: from the four input blocks and the row `xo` held so far, the row the body
    stores back — `xo` plus the column sums of the block's negated utilities. -/
def step (x0 : Vec F S4096x128 .f32) (x1 : Vec F S4096x128 .i32) (x2 x3 : Vec F S4096x128 .f32)
    (xo : Vec F S1x1x128 .f32) : Vec F S1x1x128 .f32 :=
  k0_pay1 (k0_pay3 x0) (k0_pay5 x1) (k0_pay6 x1) (k0_pay7 x2 x3) (k0_pay8 x2 x3) (k0_pay9 x2 x3)
    (k0_pay10 x1 x2 x3) k0_pay11 xo

/-- A point that is not the first of its half: the body adds the block's column sums to the row it finds. -/
theorem out_B (c : Dev nD) (i : grid0.Coords) (a2 : Memref sig .tc .vmem S4096x128 .f32) (h2 : a2.IsWhole)
    (a3 : Memref sig .tc .vmem S4096x128 .i32) (h3 : a3.IsWhole) (a4 : Memref sig .tc .vmem S4096x128 .f32) (h4 : a4.IsWhole)
    (a5 : Memref sig .tc .vmem S4096x128 .f32) (h5 : a5.IsWhole) (a6 : Memref sig .tc .vmem S1x1x128 .f32) (h6 : a6.IsWhole)
    (hc : ¬cond0_0 i) (x0 : Vec F S4096x128 .f32) (x1 : Vec F S4096x128 .i32) (x2 x3 : Vec F S4096x128 .f32)
    (xo : Vec F S1x1x128 .f32) :
    out0_B_4 c i a2 h2 a3 h3 a4 h4 a5 h5 a6 h6 hc x0 x1 x2 x3 xo = step x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S4096x128) hz2, View.ld_unit_zero (S := S1x1x128) hz3, step]

/-- The first point of a half: the body first stores the zero row, then adds the block's column sums to it. -/
theorem out_A (c : Dev nD) (i : grid0.Coords) (a2 : Memref sig .tc .vmem S4096x128 .f32) (h2 : a2.IsWhole)
    (a3 : Memref sig .tc .vmem S4096x128 .i32) (h3 : a3.IsWhole) (a4 : Memref sig .tc .vmem S4096x128 .f32) (h4 : a4.IsWhole)
    (a5 : Memref sig .tc .vmem S4096x128 .f32) (h5 : a5.IsWhole) (a6 : Memref sig .tc .vmem S1x1x128 .f32) (h6 : a6.IsWhole)
    (hc : cond0_0 i) (x0 : Vec F S4096x128 .f32) (x1 : Vec F S4096x128 .i32) (x2 x3 : Vec F S4096x128 .f32) :
    out0_A_4 c i a2 h2 a3 h3 a4 h4 a5 h5 a6 h6 hc x0 x1 x2 x3 = step x0 x1 x2 x3 k0_pay2 := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread,
    View.ld_unit_zero (S := S4096x128) hz2, step]

end Cert.KernelIdeal.Acc

end
-- ==== Proof.KernelStep.lean ====
/-
  One grid step of the kernel read at the extended reals: the row the body stores back is, lane by lane, the row it
  found plus the sum down the lane's column of the per-reading losses of the 4096 × 128 block.
-/
import proofs.«105581_j70531952935356_2_alg».proof.Proof.Gen.KernelIdeal.Frame
import Idealize.ShloMosaic.Lib.Pipeline.Value
import Idealize.ShloMosaic.Lib.Tactic
import proofs.«105581_j70531952935356_2_alg».proof.Proof.KernelPieces
import proofs.«105581_j70531952935356_2_alg».proof.Proof.Spec
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Utility

/-- The accumulator row's layout: a [1,1,128] row cast to [1,128], a [128] vector cast to [1,128] added to it, the sum
    cast back to [1,1,128], read at lane `l`. -/
theorem row_add_apply (xo : S1x1x128.Idx → EReal) (z : S128.Idx → EReal)
    (h1 : S1x1x128.ShapeCasts S1x128) (h2 : S128.ShapeCasts S1x128) (h3 : S1x128.ShapeCasts S1x1x128) (u v : Fin 1) (l : Fin 128) :
    shapeCast S1x1x128 (addf (F := Ideal) (φ := .f32) (shapeCast S1x128 xo h1) (shapeCast S1x128 z h2)) h3 (ix3 u v l)
      = xo (ix3 0 v l) + z (ix1 l) := by
  refine (shapeCast_ab_1ab_apply _ h3 u v l).trans ?_
  refine (addf_apply _ _ _).trans ?_
  rw [shapeCast_1ab_ab_apply xo h1 v l, shapeCast_a_1a_apply z h2 v l]

/-- The column sums of a [4096,128] block from the zero accumulator. -/
theorem colsum_apply (y : FVec Ideal S4096x128 .f32) (l : Fin 128) :
    multiReduction .add [0] S128 y 0x00000000#32 reduces_S4096x128_S128 (.inl rfl) rfl (ix1 l)
      = ∑ r : Fin 4096, y (ix2 r l) := by
  refine (Ideal.multiReduction_add_single y _ reduces_S4096x128_S128 (.inl rfl) rfl (ix1 l)).trans ?_
  refine Finset.sum_congr rfl fun k _ => congrArg y (funext fun a => ?_)
  match a with
  | ⟨0, _⟩ => exact Fin.ext rfl
  | ⟨1, _⟩ => exact Fin.ext rfl

/-- One grid step read at lane `l`: the row held so far plus the sum down column `l` of the block's losses. -/
theorem step_apply (x0 : Vec Ideal S4096x128 .f32) (x1 : Vec Ideal S4096x128 .i32) (x2 x3 : Vec Ideal S4096x128 .f32)
    (xo : Vec Ideal S1x1x128 .f32) (u v : Fin 1) (l : Fin 128) :
    step x0 x1 x2 x3 xo (ix3 u v l)
      = xo (ix3 0 v l) + ∑ r : Fin 4096, loss (x0 (ix2 r l)) (x1 (ix2 r l)) (x2 (ix2 r l)) (x3 (ix2 r l)) := by
  unfold step k0_pay1
  refine (row_add_apply xo _ _ _ _ u v l).trans ?_
  refine congrArg (xo (ix3 0 v l) + ·) ?_
  refine (colsum_apply _ l).trans ?_
  refine Finset.sum_congr rfl fun r _ => ?_
  simp only [k0_pay3, k0_pay4, k0_pay5, k0_pay6, k0_pay7, k0_pay8, k0_pay9, k0_pay10, k0_pay11, shapeCast_self]
  rfl

end Cert.KernelIdeal.Acc

end
-- ==== Proof.LibBlockSum.lean ====
/-
  A sum of `a * b` terms taken in `a` consecutive blocks of `b` terms, in any commutative additive monoid (the extended
  reals included: only commutativity and associativity of `+` are used, so infinite terms are allowed).
-/
import Mathlib.Algebra.BigOperators.Fin

namespace Cert.BlockSum

/-- The sum over `Fin (a * b)` is the sum over the `a` blocks of the sums inside each block: term `k = b * i + j`
    is term `j` of block `i`. -/
theorem sum_blocks {M : Type*} [AddCommMonoid M] (a b : ℕ) (f : ℕ → M) :
    ∑ k : Fin (a * b), f k.val = ∑ i : Fin a, ∑ j : Fin b, f (b * i.val + j.val) := by
  rw [← Fintype.sum_prod_type' (f := fun (i : Fin a) (j : Fin b) => f (b * i.val + j.val))]
  refine (Fintype.sum_equiv finProdFinEquiv _ _ (fun p => ?_)).symm
  simp [finProdFinEquiv, add_comm]

end Cert.BlockSum
-- ==== Proof.LibIdxSum.lean ====
/-
  Sums over the index sets of small-rank arrays written as iterated sums over their coordinates, and the regrouping of
  a sum over 16,777,216 = 2 · 16 · 4096 · 128 consecutive terms by (half, lane, block of the half, row of the block).
  Everything here holds in any commutative additive monoid: only commutativity and associativity of `+` are used.
-/
import proofs.«105581_j70531952935356_2_alg».proof.Proof.LibBlockSum
import Idealize.ShloMosaic.Lib.ValueIdx

namespace Cert.IdxSum

open Idealize.ShloMosaic Idealize.ShloMosaic.ValueIdx

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The 16,777,216 consecutive terms of a sum, regrouped: term `128 · (4096 · (16 c + i) + r) + l` is lane `l` of row
    `r` of block `i` of half `c`, and the lanes are summed outside the blocks and rows of a half. -/
theorem regroup {M : Type*} [AddCommMonoid M] (L : ℕ → M) :
    ∑ k : Fin 16777216, L k.val
      = ∑ c : Fin 2, ∑ l : Fin 128, ∑ i : Fin 16, ∑ r : Fin 4096,
          L (128 * (4096 * (16 * c.val + i.val) + r.val) + l.val) := by
  have h1 : ∑ k : Fin 16777216, L k.val = ∑ row : Fin 131072, ∑ l : Fin 128, L (128 * row.val + l.val) :=
    Cert.BlockSum.sum_blocks 131072 128 L
  have h2 : ∑ row : Fin 131072, ∑ l : Fin 128, L (128 * row.val + l.val)
      = ∑ b : Fin 32, ∑ r : Fin 4096, ∑ l : Fin 128, L (128 * (4096 * b.val + r.val) + l.val) :=
    Cert.BlockSum.sum_blocks 32 4096 (fun row => ∑ l : Fin 128, L (128 * row + l.val))
  have h3 : ∑ b : Fin 32, ∑ r : Fin 4096, ∑ l : Fin 128, L (128 * (4096 * b.val + r.val) + l.val)
      = ∑ c : Fin 2, ∑ i : Fin 16, ∑ r : Fin 4096, ∑ l : Fin 128,
          L (128 * (4096 * (16 * c.val + i.val) + r.val) + l.val) :=
    Cert.BlockSum.sum_blocks 2 16 (fun b => ∑ r : Fin 4096, ∑ l : Fin 128, L (128 * (4096 * b + r.val) + l.val))
  rw [h1, h2, h3]
  refine Finset.sum_congr rfl fun c _ => ?_
  calc ∑ i : Fin 16, ∑ r : Fin 4096, ∑ l : Fin 128, L (128 * (4096 * (16 * c.val + i.val) + r.val) + l.val)
      = ∑ i : Fin 16, ∑ l : Fin 128, ∑ r : Fin 4096, L (128 * (4096 * (16 * c.val + i.val) + r.val) + l.val) :=
        Finset.sum_congr rfl fun i _ => Finset.sum_comm
    _ = ∑ l : Fin 128, ∑ i : Fin 16, ∑ r : Fin 4096, L (128 * (4096 * (16 * c.val + i.val) + r.val) + l.val) :=
        Finset.sum_comm

end Cert.IdxSum
-- ==== Proof.KernelBlocks.lean ====
/-
  The input blocks the pipeline stages, read as entries of the flat argument arrays: at grid point `t` each input
  window holds rows 4096 t … 4096 t + 4095 of the 131,072 × 128 view of its argument, so one grid step adds to the
  accumulator row, lane by lane, the losses of the readings `128 · (4096 t + r) + l`.
-/
import proofs.«105581_j70531952935356_2_alg».proof.Proof.Gen.KernelIdeal.Frame
import Idealize.ShloMosaic.Lib.Pipeline.Value
import Idealize.ShloMosaic.Lib.Tactic
import proofs.«105581_j70531952935356_2_alg».proof.Proof.KernelStep
import proofs.«105581_j70531952935356_2_alg».proof.Proof.LibIdxSum
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Utility

variable (m : (ℓ : Loc nD τ sig) → Buf (Elt Ideal) ℓ) (ρ : Dev nD → PrngReg)

/-- The printed index maps, decided over the 32 grid points: at point `t` every input window is on row block `t`,
    and the accumulator row's window on half `t / 16`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val / 16 ∧ win0_4.index t (1 : Fin 3) = 0 ∧ win0_4.index t (2 : Fin 3) = 0 :=
  (by decide +kernel : ∀ t : Fin grid0.N, _)

/-- A flat array of 16,777,216 entries viewed as 131,072 rows of 128 lanes: entry (row, l) is flat entry 128·row + l. -/
theorem rows_apply {α : Type} (x : S16777216.Idx → α) (h : S16777216.ShapeCasts S131072x128) (row : Fin 131072) (l : Fin 128) :
    shapeCast S131072x128 x h (ix2 row l) = x (ix1 ⟨128 * row.val + l.val, by omega⟩) :=
  shapeCast_apply x h _ _ (by
    rw [Shape.rowMajor_val_two, Shape.rowMajor_val_one]
    show 128 * row.val + l.val = row.val * 128 + l.val
    omega)

/-- The four arrays the region stages are the row views of the argument arrays. -/
theorem V_v0 (c : Dev nD) : (V m c main_v0 : S131072x128.Idx → EReal)
    = shapeCast S131072x128 (m ((c : Thread nD τ).loc main_arg0)) shapeCasts_S16777216_S131072x128 := by
  show StableHlo.after hostOps0 (fun b => m (c, b)) (Proc.devRef .tc main_v0) = _
  after_results
  rfl
theorem V_v1 (c : Dev nD) : (V m c main_v1 : S131072x128.Idx → BitVec 32)
    = shapeCast S131072x128 (m ((c : Thread nD τ).loc main_arg2)) shapeCasts_S16777216_S131072x128 := by
  show StableHlo.after hostOps0 (fun b => m (c, b)) (Proc.devRef .tc main_v1) = _
  after_results
  rfl
theorem V_v2 (c : Dev nD) : (V m c main_v2 : S131072x128.Idx → EReal)
    = shapeCast S131072x128 (m ((c : Thread nD τ).loc main_arg3)) shapeCasts_S16777216_S131072x128 := by
  show StableHlo.after hostOps0 (fun b => m (c, b)) (Proc.devRef .tc main_v2) = _
  after_results
  rfl
theorem V_v3 (c : Dev nD) : (V m c main_v3 : S131072x128.Idx → EReal)
    = shapeCast S131072x128 (m ((c : Thread nD τ).loc main_arg4)) shapeCasts_S16777216_S131072x128 := by
  show StableHlo.after hostOps0 (fun b => m (c, b)) (Proc.devRef .tc main_v3) = _
  after_results
  rfl

/-- Row `r`, lane `l` of the block an input window stages at point `t` is flat entry `128 · (4096 t + r) + l` of its
    argument array. -/
theorem iblk0_apply (c : Dev nD) (t : Fin cfg0.N) (r : Fin 4096) (l : Fin 128)
    (hk : 128 * (4096 * t.val + r.val) + l.val < 16777216) :
    (iblk m c 0 t : Vec Ideal S4096x128 .f32) (ix2 r l) = m ((c : Thread nD τ).loc main_arg0) (ix1 ⟨128 * (4096 * t.val + r.val) + l.val, hk⟩) := by
  have ht : t.val < 32 := lt_of_lt_of_eq t.isLt N_0
  obtain ⟨e00, e01, e10, e11, e20, e21, e30, e31, -⟩ := idx_facts t
  unfold iblk
  rw [View.read_apply]
  show V m c main_v0 (((cfg0.win 0).blk t).view.emb (ix2 r l)) = _
  have e : ((cfg0.win 0).blk t).view.emb (ix2 r l) = ix2 ⟨4096 * t.val + r.val, by omega⟩ l := by
    funext a; apply Fin.ext
    match a with
    | ⟨0, _⟩ => show win0_0.index t (0 : Fin 2) * 4096 + 1 * r.val = 4096 * t.val + r.val; omega
    | ⟨1, _⟩ => show win0_0.index t (1 : Fin 2) * 128 + 1 * l.val = l.val; omega
  rw [e, V_v0, rows_apply]
theorem iblk1_apply (c : Dev nD) (t : Fin cfg0.N) (r : Fin 4096) (l : Fin 128)
    (hk : 128 * (4096 * t.val + r.val) + l.val < 16777216) :
    (iblk m c 1 t : Vec Ideal S4096x128 .i32) (ix2 r l) = m ((c : Thread nD τ).loc main_arg2) (ix1 ⟨128 * (4096 * t.val + r.val) + l.val, hk⟩) := by
  have ht : t.val < 32 := lt_of_lt_of_eq t.isLt N_0
  obtain ⟨e00, e01, e10, e11, e20, e21, e30, e31, -⟩ := idx_facts t
  unfold iblk
  rw [View.read_apply]
  show V m c main_v1 (((cfg0.win 1).blk t).view.emb (ix2 r l)) = _
  have e : ((cfg0.win 1).blk t).view.emb (ix2 r l) = ix2 ⟨4096 * t.val + r.val, by omega⟩ l := by
    funext a; apply Fin.ext
    match a with
    | ⟨0, _⟩ => show win0_1.index t (0 : Fin 2) * 4096 + 1 * r.val = 4096 * t.val + r.val; omega
    | ⟨1, _⟩ => show win0_1.index t (1 : Fin 2) * 128 + 1 * l.val = l.val; omega
  rw [e, V_v1, rows_apply]
theorem iblk2_apply (c : Dev nD) (t : Fin cfg0.N) (r : Fin 4096) (l : Fin 128)
    (hk : 128 * (4096 * t.val + r.val) + l.val < 16777216) :
    (iblk m c 2 t : Vec Ideal S4096x128 .f32) (ix2 r l) = m ((c : Thread nD τ).loc main_arg3) (ix1 ⟨128 * (4096 * t.val + r.val) + l.val, hk⟩) := by
  have ht : t.val < 32 := lt_of_lt_of_eq t.isLt N_0
  obtain ⟨e00, e01, e10, e11, e20, e21, e30, e31, -⟩ := idx_facts t
  unfold iblk
  rw [View.read_apply]
  show V m c main_v2 (((cfg0.win 2).blk t).view.emb (ix2 r l)) = _
  have e : ((cfg0.win 2).blk t).view.emb (ix2 r l) = ix2 ⟨4096 * t.val + r.val, by omega⟩ l := by
    funext a; apply Fin.ext
    match a with
    | ⟨0, _⟩ => show win0_2.index t (0 : Fin 2) * 4096 + 1 * r.val = 4096 * t.val + r.val; omega
    | ⟨1, _⟩ => show win0_2.index t (1 : Fin 2) * 128 + 1 * l.val = l.val; omega
  rw [e, V_v2, rows_apply]
theorem iblk3_apply (c : Dev nD) (t : Fin cfg0.N) (r : Fin 4096) (l : Fin 128)
    (hk : 128 * (4096 * t.val + r.val) + l.val < 16777216) :
    (iblk m c 3 t : Vec Ideal S4096x128 .f32) (ix2 r l) = m ((c : Thread nD τ).loc main_arg4) (ix1 ⟨128 * (4096 * t.val + r.val) + l.val, hk⟩) := by
  have ht : t.val < 32 := lt_of_lt_of_eq t.isLt N_0
  obtain ⟨e00, e01, e10, e11, e20, e21, e30, e31, -⟩ := idx_facts t
  unfold iblk
  rw [View.read_apply]
  show V m c main_v3 (((cfg0.win 3).blk t).view.emb (ix2 r l)) = _
  have e : ((cfg0.win 3).blk t).view.emb (ix2 r l) = ix2 ⟨4096 * t.val + r.val, by omega⟩ l := by
    funext a; apply Fin.ext
    match a with
    | ⟨0, _⟩ => show win0_3.index t (0 : Fin 2) * 4096 + 1 * r.val = 4096 * t.val + r.val; omega
    | ⟨1, _⟩ => show win0_3.index t (1 : Fin 2) * 128 + 1 * l.val = l.val; omega
  rw [e, V_v3, rows_apply]

/-- The loss of reading `k` on core `c` (zero past the end of the arrays). -/
def lossAt (c : Dev nD) (k : ℕ) : EReal :=
  if h : k < 16777216 then
    loss (m ((c : Thread nD τ).loc main_arg0) (ix1 ⟨k, h⟩)) (m ((c : Thread nD τ).loc main_arg2) (ix1 ⟨k, h⟩))
      (m ((c : Thread nD τ).loc main_arg3) (ix1 ⟨k, h⟩)) (m ((c : Thread nD τ).loc main_arg4) (ix1 ⟨k, h⟩))
  else 0

/-- Lane `l` of the column sums of row block `b`: the losses of readings `128 · (4096 b + r) + l`, `r < 4096`. -/
def blockSum (c : Dev nD) (b : ℕ) (l : Fin 128) : EReal :=
  ∑ r : Fin 4096, lossAt m c (128 * (4096 * b + r.val) + l.val)

/-- One grid step at point `t` adds lane by lane the column sums of row block `t`. -/
theorem step_iblk (c : Dev nD) (t : Fin cfg0.N) (xo : Vec Ideal S1x1x128 .f32) (u v : Fin 1) (l : Fin 128) :
    step (iblk m c 0 t) (iblk m c 1 t) (iblk m c 2 t) (iblk m c 3 t) xo (ix3 u v l)
      = xo (ix3 0 v l) + blockSum m c t.val l := by
  have ht : t.val < 32 := lt_of_lt_of_eq t.isLt N_0
  refine (step_apply (iblk m c 0 t) (iblk m c 1 t) (iblk m c 2 t) (iblk m c 3 t) xo u v l).trans ?_
  refine congrArg (xo (ix3 0 v l) + ·) ?_
  refine Finset.sum_congr rfl fun r _ => ?_
  have hk : 128 * (4096 * t.val + r.val) + l.val < 16777216 := by omega
  rw [iblk0_apply m c t r l hk, iblk1_apply m c t r l hk, iblk2_apply m c t r l hk, iblk3_apply m c t r l hk]
  unfold lossAt
  rw [dif_pos hk]

end Cert.KernelIdeal.Acc

end
-- ==== Proof.KernelValue.lean ====
/-
  The kernel's run read as a value at the extended reals.

  The accumulator row is carried across the sixteen points of a half: the first point resets it to zero, every point
  adds the column sums of its row block, and the last point's row is written back to the half's row of the [2,1,128]
  array. So after the region entry (half, ·, lane) of that array is the sum of the losses of the readings in the lane's
  column of the half's sixteen blocks; the host's final reduction adds up the 256 entries; and regrouping the sum gives
  the sum of the losses of all readings.
-/
import proofs.«105581_j70531952935356_2_alg».proof.Proof.Gen.KernelIdeal.Frame
import Idealize.ShloMosaic.Lib.Pipeline.Value
import Idealize.ShloMosaic.Lib.Tactic
import proofs.«105581_j70531952935356_2_alg».proof.Proof.KernelBlocks
import proofs.«105581_j70531952935356_2_alg».proof.Proof.LibIdxSum
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Utility

variable (m : (ℓ : Loc nD τ sig) → Buf (Elt Ideal) ℓ) (ρ : Dev nD → PrngReg)

/-- The zero row the first point of a half stores, read at a lane. -/
theorem zero_row_apply (u v : Fin 1) (l : Fin 128) :
    (k0_pay2 (F := Ideal)) (ix3 u v l) = lit 0x00000000#32 := by
  unfold k0_pay2
  exact shapeCast_ab_1ab_apply _ _ u v l

/-- THE RUNNING SUM. After point `n` the accumulator row holds, at lane `l`, the zero word plus the column sums of the
    row blocks of its half met so far: blocks `n - n % 16`, …, `n`. By induction on the point. -/
theorem outsAt_apply (c : Dev nD) : ∀ (n : ℕ) (h : n < cfg0.N) (u v : Fin 1) (l : Fin 128),
    outsAt0 m c n h (ix3 u v l)
      = lit 0x00000000#32 + ∑ i ∈ Finset.range (n % 16 + 1), blockSum m c (n - n % 16 + i) l
  | 0, h, u, v, l => by
    rw [outsAt0_A m c ⟨0, h⟩ rfl, out_A]
    refine (step_iblk m c ⟨0, h⟩ _ u v l).trans ?_
    rw [zero_row_apply]
    simp
  | n + 1, h, u, v, l => by
    by_cases h0 : (n + 1) % 16 = 0
    · rw [outsAt0_A m c ⟨n + 1, h⟩ h0, out_A]
      refine (step_iblk m c ⟨n + 1, h⟩ _ u v l).trans ?_
      rw [zero_row_apply, h0]
      simp
    · rw [outsAt0_B m c ⟨n + 1, h⟩ h0, out_B]
      refine (step_iblk m c ⟨n + 1, h⟩ _ u v l).trans ?_
      show outsAt0 m c n _ (ix3 0 v l) + blockSum m c (n + 1) l = _
      rw [outsAt_apply c n _ 0 v l]
      have e1 : (n + 1) % 16 = n % 16 + 1 := by omega
      have e2 : n + 1 - (n % 16 + 1) = n - n % 16 := by omega
      have e3 : n - n % 16 + (n % 16 + 1) = n + 1 := by omega
      rw [e1, e2, Finset.sum_range_succ (n := n % 16 + 1), e3, add_assoc]

/-- The accumulator array after the run: entry (half, ·, lane) is the zero word plus the column sums of the sixteen
    row blocks of the half. -/
def halves (c : Dev nD) : S2x1x128.Idx → EReal :=
  fun j => lit 0x00000000#32 + ∑ i ∈ Finset.range 16, blockSum m c (16 * (j 0).val + i) (j 2)

/-- What the last point of a half writes back is that half's row of `halves`. -/
theorem flushed_eq (c : Dev nD) (t : Fin cfg0.N) (hf : (cfg0.win 4).flush t = true) :
    (dats m 0 c).flushed 4 t = ((cfg0.win 4).blk t).view.read (Elt Ideal) (halves m c) := by
  have h15 : t.val % 16 = 15 := (flush0_4 t).mp hf
  have ht : t.val < 32 := lt_of_lt_of_eq t.isLt N_0
  obtain ⟨-, -, -, -, -, -, -, -, e40, e41, e42⟩ := idx_facts t
  show (cfg0.win 4).cut (grid0.coords t) ((dats m 0 c).after 4 t) = _
  rw [after0_4]
  funext j
  rw [View.read_apply]
  have hj0 : (j 0).val < 1 := (j 0).isLt
  have hj1 : (j 1).val < 1 := (j 1).isLt
  have e : ((cfg0.win 4).blk t).view.emb j = ix3 ⟨t.val / 16, by omega⟩ (0 : Fin 1) (j 2) := by
    funext a; apply Fin.ext
    match a with
    | ⟨0, _⟩ => show win0_4.index t (0 : Fin 3) * 1 + 1 * (j 0).val = t.val / 16; omega
    | ⟨1, _⟩ => show win0_4.index t (1 : Fin 3) * 1 + 1 * (j 1).val = 0; omega
    | ⟨2, _⟩ => show win0_4.index t (2 : Fin 3) * 128 + 1 * (j 2).val = (j 2).val; omega
  rw [e]
  refine (congrArg (outsAt0 m c t.val t.isLt) (eq_ix3 j)).trans ?_
  refine (outsAt_apply m c t.val t.isLt (j 0) (j 1) (j 2)).trans ?_
  have e2 : t.val - 15 = 16 * (t.val / 16) := by omega
  rw [h15, e2]
  rfl

/-- The two write-backs cover the accumulator array, so it ends at `halves`. -/
theorem final (c : Dev nD) : (dats m 0 c).arrAt 4 cfg0.N = halves m c :=
  (dats m 0 c).arrAt_eq_of_cover 4 (halves m c) (flushed_eq m c) fun i => by
    have h0 : (i 0).val < 2 := (i 0).isLt
    have h1 : (i 1).val < 1 := (i 1).isLt
    have h2 : (i 2).val < 128 := (i 2).isLt
    have hN : cfg0.N = 32 := N_0
    have htlt : 16 * (i 0).val + 15 < cfg0.N := by omega
    have ht15 : (⟨16 * (i 0).val + 15, htlt⟩ : Fin cfg0.N).val % 16 = 15 := by show (16 * (i 0).val + 15) % 16 = 15; omega
    obtain ⟨-, -, -, -, -, -, -, -, e40, e41, e42⟩ := idx_facts ⟨16 * (i 0).val + 15, htlt⟩
    have e40' : win0_4.index ⟨16 * (i 0).val + 15, htlt⟩ (0 : Fin 3) = (i 0).val := by rw [e40]; show (16 * (i 0).val + 15) / 16 = _; omega
    refine ⟨⟨16 * (i 0).val + 15, htlt⟩, (flush0_4 _).mpr ht15, ?_⟩
    show i ∈ ((View.whole main_v4).slice (win0_4.rect ⟨16 * (i 0).val + 15, htlt⟩)).set
    rw [View.set_slice_whole, Rect.mem_set_unit]
    intro a
    match a with
    | ⟨0, _⟩ => show win0_4.index ⟨16 * (i 0).val + 15, htlt⟩ (0 : Fin 3) * 1 ≤ (i 0).val ∧ (i 0).val < win0_4.index ⟨16 * (i 0).val + 15, htlt⟩ (0 : Fin 3) * 1 + 1; omega
    | ⟨1, _⟩ => show win0_4.index ⟨16 * (i 0).val + 15, htlt⟩ (1 : Fin 3) * 1 ≤ (i 1).val ∧ (i 1).val < win0_4.index ⟨16 * (i 0).val + 15, htlt⟩ (1 : Fin 3) * 1 + 1; omega
    | ⟨2, _⟩ => show win0_4.index ⟨16 * (i 0).val + 15, htlt⟩ (2 : Fin 3) * 128 ≤ (i 2).val ∧ (i 2).val < win0_4.index ⟨16 * (i 0).val + 15, htlt⟩ (2 : Fin 3) * 128 + 128; omega

/-- The program's result: the zero word plus the sum of every entry of the accumulator array. -/
def result (c : Dev nD) : Buf (Elt Ideal) ((c : Thread nD τ).loc main_v5) :=
  fun _ => lit 0x00000000#32 + ∑ j : S2x1x128.Idx, halves m c j

/-- The host's final reduction of the accumulator array the region left. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v4)
      = halves m c :=
    (Pipeline.withArrays_arr spec0 launch0.win.arr_inj c _ _ 4).trans (final m c)
  rw [hA]
  funext j
  simp only [Host.reduceAdd, Ideal.hostReduceAdd_def]
  exact Ideal.hostReduceAdd_total reducesTo_S2x1x128_S_d0_1_2 (fun b => b.elim0) (halves m c) _ j

/-- THE KERNEL'S RUN, READ: every weakly fair execution terminates with the result at the zero word plus the sum of the
    accumulator array's entries, and the argument arrays unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

/-- THE RESULT AS ONE SUM: the kernel's result is the zero word plus the sum of the losses of all 16,777,216 readings —
    the accumulator array's 2 · 128 entries are sums over disjoint sets of readings that together are all of them
    (reading `128 · (4096 · (16 c + i) + r) + l` is counted in entry (c, l)), and sums over the extended reals may be
    regrouped freely. -/
theorem result_eq_sum (c : Dev nD) (j : S_.Idx) :
    result m c j = lit 0x00000000#32 + ∑ i : S16777216.Idx,
      loss (m ((c : Thread nD τ).loc main_arg0) i) (m ((c : Thread nD τ).loc main_arg2) i)
        (m ((c : Thread nD τ).loc main_arg3) i) (m ((c : Thread nD τ).loc main_arg4) i) := by
  show lit 0x00000000#32 + ∑ j : S2x1x128.Idx, halves m c j = _
  refine congrArg (lit 0x00000000#32 + ·) ?_
  rw [Cert.IdxSum.sum_idx1, Cert.IdxSum.sum_idx3]
  have hL : ∀ a : Fin 16777216,
      loss (m ((c : Thread nD τ).loc main_arg0) (ix1 a)) (m ((c : Thread nD τ).loc main_arg2) (ix1 a))
        (m ((c : Thread nD τ).loc main_arg3) (ix1 a)) (m ((c : Thread nD τ).loc main_arg4) (ix1 a)) = lossAt m c a.val :=
    fun a => by unfold lossAt; rw [dif_pos a.isLt]
  simp only [hL]
  rw [Cert.IdxSum.regroup (lossAt m c)]
  refine Finset.sum_congr rfl fun a _ => ?_
  rw [Fin.sum_univ_one]
  refine Finset.sum_congr rfl fun l _ => ?_
  unfold halves blockSum
  rw [show lit 0x00000000#32 = 0 from Ideal.ofBits_zero_f32, zero_add, Finset.sum_range]

end Cert.KernelIdeal.Acc

end
-- ==== Proof.lean ====
/-
  The kernel and the reference compute the same number on the extended reals.

  Both programs take a prediction, a sepsis flag, an onset time and a reading time per reading (the `targets` array is
  read by neither) and return minus the total expected utility. Per reading both evaluate the same piecewise-linear
  utility with the same f32 words for its constants (`Cert.Utility.loss`, Proof/Spec.lean): the reference keeps a
  true-negative term `0 · (1 - f)`, which is zero on every extended real, and negates where the kernel subtracts
  from zero. The reference sums the 16,777,216 losses in one reduction (Proof/RefValue.lean). The kernel views the
  arrays as 131,072 rows of 128 lanes, walks them in 2 halves of 16 blocks of 4096 rows, keeps per half a row of 128
  running column sums (Proof/KernelPieces.lean, Proof/KernelStep.lean, Proof/KernelBlocks.lean), and finally adds the
  2 · 128 column sums (Proof/KernelValue.lean). Addition of extended reals is commutative and associative, so the two
  groupings of the one sum agree (Proof/LibIdxSum.lean, Proof/LibBlockSum.lean); no input needs to be finite for this.

  The three frame claims are the generated frame runs (the reference's with its result forgotten); the idealized
  kernel is the kernel's own text read at the extended reals, so `preserves` is `True`.
-/
import proofs.«105581_j70531952935356_2_alg».proof.Defs
import proofs.«105581_j70531952935356_2_alg».proof.Proof.Gen.Kernel
import proofs.«105581_j70531952935356_2_alg».proof.Proof.Gen.Kernel.Skeleton
import proofs.«105581_j70531952935356_2_alg».proof.Proof.Gen.Kernel.Launch
import proofs.«105581_j70531952935356_2_alg».proof.Proof.Gen.Kernel.Points
import proofs.«105581_j70531952935356_2_alg».proof.Proof.Gen.Kernel.Frame
import proofs.«105581_j70531952935356_2_alg».proof.Proof.Gen.KernelIdeal
import proofs.«105581_j70531952935356_2_alg».proof.Proof.Gen.KernelIdeal.Skeleton
import proofs.«105581_j70531952935356_2_alg».proof.Proof.Gen.KernelIdeal.Launch
import proofs.«105581_j70531952935356_2_alg».proof.Proof.Gen.KernelIdeal.Points
import proofs.«105581_j70531952935356_2_alg».proof.Proof.Gen.KernelIdeal.Frame
import proofs.«105581_j70531952935356_2_alg».proof.Proof.Gen.ReferenceIdeal
import proofs.«105581_j70531952935356_2_alg».proof.Proof.Gen.Pre_finite_inputs
import proofs.«105581_j70531952935356_2_alg».proof.Proof.Gen.ReferenceIdeal.Run
import proofs.«105581_j70531952935356_2_alg».proof.Proof.Gen.ReferenceIdeal.Read
import proofs.«105581_j70531952935356_2_alg».proof.Proof.RefValue
import proofs.«105581_j70531952935356_2_alg».proof.Proof.KernelValue
import Idealize.ShloMosaic.Adequacy
import Idealize.ShloMosaic.Init

noncomputable section

namespace Cert.Proof

open Idealize.ShloMosaic Idealize.SL.Sem

section
variable [hK : Cert.Kernel.Facts] [hKI : Cert.KernelIdeal.Facts] [hRI : Cert.ReferenceIdeal.Facts]
  [hP : Cert.Pre_finite_inputs.Facts]

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the zero word plus the sum of the losses of all readings of arguments that agree. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq]
  funext j
  rw [Cert.Utility.Ref.result_apply, (hagree c).1, (hagree c).2.2.1, (hagree c).2.2.2.1, (hagree c).2.2.2.2]
  exact (Cert.KernelIdeal.Acc.result_eq_sum m c j).symm

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
